-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256 : Shape := ⟨2, ![256, 256]⟩
abbrev S256 : Shape := ⟨1, ![256]⟩
abbrev S1x4096x256 : Shape := ⟨3, ![1, 4096, 256]⟩
abbrev S500x128 : Shape := ⟨2, ![500, 128]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel
  bcast_S_S1x4096x256 : S_.BroadcastsInDim S1x4096x256 (![] : Fin 0 → Fin S1x4096x256.rank)
  reducesTo_S1x4096x256_S_d0_1_2 : S1x4096x256.ReducesTo [0, 1, 2] S_
  bcast_S_S500x128 : S_.BroadcastsInDim S500x128 (![] : Fin 0 → Fin S500x128.rank)
  reducesTo_S500x128_S_d0_1 : S500x128.ReducesTo [0, 1] S_

variable [Facts]

def fn {F : FTy → Type} [FloatOps F] (main_arg0 : FVec F S256x256 .f32) (main_arg1 : IVec S256 32) (main_arg2 : FVec F S1x4096x256 .f32) (main_arg3 : FVec F S500x128 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  let main_v4 : FVec F S1x4096x256 .f32 := Host.absf main_arg2
  let main_cst_0 : FVec F S_ .f32 := constant S_ .f32 0x7F800000#32
  let main_v5 : FVec F S1x4096x256 .f32 := broadcastInDim S1x4096x256 ![] bcast_S_S1x4096x256 main_cst_0
  let main_v6 : IVec S1x4096x256 1 := cmpf .olt main_v4 main_v5
  let main_c_1 : IVec S_ 1 := constantI S_ 1 1#1
  let main_v7 : IVec S_ 1 := (fun x v => Host.reduce IntOp.andi x v reducesTo_S1x4096x256_S_d0_1_2 h_S_) main_v6 main_c_1
  let main_v8 : IVec S_ 1 := andi main_v3 main_v7
  let main_v9 : FVec F S500x128 .f32 := Host.absf main_arg3
  let main_cst_2 : FVec F S_ .f32 := constant S_ .f32 0x7F800000#32
  let main_v10 : FVec F S500x128 .f32 := broadcastInDim S500x128 ![] bcast_S_S500x128 main_cst_2
  let main_v11 : IVec S500x128 1 := cmpf .olt main_v9 main_v10
  let main_c_3 : IVec S_ 1 := constantI S_ 1 1#1
  let main_v12 : IVec S_ 1 := (fun x v => Host.reduce IntOp.andi x v reducesTo_S500x128_S_d0_1 h_S_) main_v11 main_c_3
  let main_v13 : IVec S_ 1 := andi main_v8 main_v12
  main_v13
-- ==== Kernel.lean ====
abbrev S256x256 : Shape := ⟨2, ![256, 256]⟩
abbrev S256 : Shape := ⟨1, ![256]⟩
abbrev S1x4096x256 : Shape := ⟨3, ![1, 4096, 256]⟩
abbrev S500x128 : Shape := ⟨2, ![500, 128]⟩
abbrev S_ : Shape := ⟨0, ![]⟩
abbrev S256x1 : Shape := ⟨2, ![256, 1]⟩
abbrev S256x128 : Shape := ⟨2, ![256, 128]⟩
abbrev S4096x256 : Shape := ⟨2, ![4096, 256]⟩
abbrev S256x4096 : Shape := ⟨2, ![256, 4096]⟩
abbrev S128x256 : Shape := ⟨2, ![128, 256]⟩
abbrev S128x128 : Shape := ⟨2, ![128, 128]⟩
abbrev S128x4096 : Shape := ⟨2, ![128, 4096]⟩
abbrev S4096x128 : Shape := ⟨2, ![4096, 128]⟩
abbrev S128 : Shape := ⟨1, ![128]⟩
abbrev S128x1 : Shape := ⟨2, ![128, 1]⟩
abbrev S4096 : Shape := ⟨1, ![4096]⟩
abbrev S4096x1 : Shape := ⟨2, ![4096, 1]⟩
abbrev S1x4096 : Shape := ⟨2, ![1, 4096]⟩

abbrev nBuf : Space → Nat
  | .hbm => 15
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256, .i32⟩
  | .hbm, ⟨2, _⟩ => ⟨S1x4096x256, .f32⟩
  | .hbm, ⟨3, _⟩ => ⟨S500x128, .f32⟩
  | .hbm, ⟨4, _⟩ => ⟨S_, .i32⟩
  | .hbm, ⟨5, _⟩ => ⟨S256, .i32⟩
  | .hbm, ⟨6, _⟩ => ⟨S256, .i1⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S256, .i32⟩
  | .hbm, ⟨11, _⟩ => ⟨S256x1, .i32⟩
  | .hbm, ⟨12, _⟩ => ⟨S256x128, .f32⟩
  | .hbm, ⟨13, _⟩ => ⟨S4096x256, .f32⟩
  | .hbm, ⟨14, _⟩ => ⟨S256x4096, .f32⟩
  | .local _ .vmem, ⟨0, _⟩ => ⟨S128x256, .f32⟩
  | .local _ .vmem, ⟨1, _⟩ => ⟨S128x256, .f32⟩
  | .local _ .vmem, ⟨2, _⟩ => ⟨S128x128, .f32⟩
  | .local _ .vmem, ⟨3, _⟩ => ⟨S128x128, .f32⟩
  | .local _ .vmem, ⟨4, _⟩ => ⟨S4096x256, .f32⟩
  | .local _ .vmem, ⟨5, _⟩ => ⟨S128x4096, .f32⟩
  | .local _ .vmem, ⟨6, _⟩ => ⟨S128x4096, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S256 : S_.BroadcastsInDim S256 (![] : Fin 0 → Fin S256.rank)
  bcast_S256_S256x1_0 : S256.BroadcastsInDim S256x1 (![0] : Fin 1 → Fin S256x1.rank)
  shapeCasts_S1x4096x256_S4096x256 : S1x4096x256.ShapeCasts S4096x256
  inb_S128x256_S128x256_0_0 : ∀ a, (![0, 0] : Fin 2 → Nat) a + S128x256.size a ≤ S128x256.size a
  h_S128x256 : 0 < S128x256.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  slices_S128x256_o0_0_S128x128 : S128x256.Slices ![0, 0] S128x128
  slices_S128x256_o0_128_S128x128 : S128x256.Slices ![0, 128] S128x128
  slices_S4096x256_o0_0_S4096x128 : S4096x256.Slices ![0, 0] S4096x128
  slices_S4096x256_o0_128_S4096x128 : S4096x256.Slices ![0, 128] S4096x128
  reduces_S128x128_S128 : S128x128.Reduces [1] S128
  shapeCasts_S128_S128x1 : S128.ShapeCasts S128x1
  reduces_S4096x128_S4096 : S4096x128.Reduces [1] S4096
  shapeCasts_S4096_S4096x1 : S4096.ShapeCasts S4096x1
  transposes_S4096x1_p1_0_S1x4096 : S4096x1.Transposes [1, 0] S1x4096
  broadcasts_S128x1_S128x4096 : S128x1.Broadcasts S128x4096
  broadcasts_S1x4096_S128x4096 : S1x4096.Broadcasts S128x4096
  inb_S128x4096_S128x4096_0_0 : ∀ a, (![0, 0] : Fin 2 → Nat) a + S128x4096.size a ≤ S128x4096.size a
  h_S128x4096 : 0 < S128x4096.numel
  gather_S500x128_S256x1_S256x128_1_0_n_n_0_1_1128_wf : GatherDims.WF S500x128 S256x1 S256x128 [1] [0] [] [0] [] 1 ![1, 128]
  dot_S128x128_S4096x128_S128x4096_1_1_0_0_n_n_wf : DotDims.WF S128x128 S4096x128 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S256x256.size a
  hwx0_0 : ∀ i : grid0.Coords, EltTy.bits .f32 = 32 ∨ (Rect.block (s := S256x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S256x128.size a
  hwx0_1 : ∀ i : grid0.Coords, EltTy.bits .f32 = 32 ∨ (Rect.block (s := S256x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x256.size a
  hwx0_2 : ∀ i : grid0.Coords, EltTy.bits .f32 = 32 ∨ (Rect.block (s := S4096x256) S4096x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S256x4096.size a
  hwx0_3 : ∀ i : grid0.Coords, EltTy.bits .f32 = 32 ∨ (Rect.block (s := S256x4096) S128x4096.size (cc0_transform_3 i) (hinb0_3 i)).WholeWords (EltTy.packing .f32)

variable [Facts₀]

def gather_S500x128_S256x1_S256x128_1_0_n_n_0_1_1128 : GatherDims S500x128 S256x1 S256x128 where
  offsetDims := [1]
  collapsedSliceDims := [0]
  operandBatchingDims := []
  startIndicesBatchingDims := []
  startIndexMap := [0]
  indexVectorDim := 1
  sliceSizes := ![1, 128]
  wf := gather_S500x128_S256x1_S256x128_1_0_n_n_0_1_1128_wf
def dot_S128x128_S4096x128_S128x4096_1_1_0_0_n_n : DotDims S128x128 S4096x128 S128x4096 where
  lhsContracting := [1]
  rhsContracting := [1]
  lhsNonContracting := [0]
  rhsNonContracting := [0]
  lhsBatch := []
  rhsBatch := []
  wf := dot_S128x128_S4096x128_S128x4096_1_1_0_0_n_n_wf

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S4096x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x256 : Shape := ⟨2, ![256, 256]⟩
abbrev S256 : Shape := ⟨1, ![256]⟩
abbrev S1x4096x256 : Shape := ⟨3, ![1, 4096, 256]⟩
abbrev S500x128 : Shape := ⟨2, ![500, 128]⟩
abbrev S_ : Shape := ⟨0, ![]⟩
abbrev S256x1 : Shape := ⟨2, ![256, 1]⟩
abbrev S256x128 : Shape := ⟨2, ![256, 128]⟩
abbrev S4096x256 : Shape := ⟨2, ![4096, 256]⟩
abbrev S256x1x256 : Shape := ⟨3, ![256, 1, 256]⟩
abbrev S256x4096x256 : Shape := ⟨3, ![256, 4096, 256]⟩
abbrev S256x4096 : Shape := ⟨2, ![256, 4096]⟩

abbrev nBuf : Space → Nat
  | .hbm => 35
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256, .i32⟩
  | .hbm, ⟨2, _⟩ => ⟨S1x4096x256, .f32⟩
  | .hbm, ⟨3, _⟩ => ⟨S500x128, .f32⟩
  | .hbm, ⟨4, _⟩ => ⟨S_, .i32⟩
  | .hbm, ⟨5, _⟩ => ⟨S256, .i32⟩
  | .hbm, ⟨6, _⟩ => ⟨S256, .i1⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S256, .i32⟩
  | .hbm, ⟨11, _⟩ => ⟨S256x1, .i32⟩
  | .hbm, ⟨12, _⟩ => ⟨S256x128, .f32⟩
  | .hbm, ⟨13, _⟩ => ⟨S256x128, .f32⟩
  | .hbm, ⟨14, _⟩ => ⟨S256x128, .f32⟩
  | .hbm, ⟨15, _⟩ => ⟨S256x128, .f32⟩
  | .hbm, ⟨16, _⟩ => ⟨S256x128, .f32⟩
  | .hbm, ⟨17, _⟩ => ⟨S256x128, .f32⟩
  | .hbm, ⟨18, _⟩ => ⟨S256x128, .f32⟩
  | .hbm, ⟨19, _⟩ => ⟨S256x128, .f32⟩
  | .hbm, ⟨20, _⟩ => ⟨S256x128, .f32⟩
  | .hbm, ⟨21, _⟩ => ⟨S256x128, .f32⟩
  | .hbm, ⟨22, _⟩ => ⟨S256x128, .f32⟩
  | .hbm, ⟨23, _⟩ => ⟨S256x256, .f32⟩
  | .hbm, ⟨24, _⟩ => ⟨S4096x256, .f32⟩
  | .hbm, ⟨25, _⟩ => ⟨S256x1x256, .f32⟩
  | .hbm, ⟨26, _⟩ => ⟨S1x4096x256, .f32⟩
  | .hbm, ⟨27, _⟩ => ⟨S256x4096x256, .f32⟩
  | .hbm, ⟨28, _⟩ => ⟨S256x4096x256, .f32⟩
  | .hbm, ⟨29, _⟩ => ⟨S256x4096x256, .f32⟩
  | .hbm, ⟨30, _⟩ => ⟨S256x4096x256, .f32⟩
  | .hbm, ⟨31, _⟩ => ⟨S_, .f32⟩
  | .hbm, ⟨32, _⟩ => ⟨S256x4096, .f32⟩
  | .hbm, ⟨33, _⟩ => ⟨S256x4096, .f32⟩
  | .hbm, ⟨34, _⟩ => ⟨S256x4096, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  slices_S256x256_S256x128_0_0 : S256x256.Slices ![0, 0] S256x128
  slices_S256x256_S256x128_0_128 : S256x256.Slices ![0, 128] S256x128
  concatenates_S256x128_S256x128_S256x256_d1 : Shape.Concatenates [S256x128, S256x128] S256x256 1
  shapeCasts_S1x4096x256_S4096x256 : S1x4096x256.ShapeCasts S4096x256
  bcast_S256x256_S256x1x256_0_2 : S256x256.BroadcastsInDim S256x1x256 (![0, 2] : Fin 2 → Fin S256x1x256.rank)
  bcast_S4096x256_S1x4096x256_1_2 : S4096x256.BroadcastsInDim S1x4096x256 (![1, 2] : Fin 2 → Fin S1x4096x256.rank)
  bcast_S256x1x256_S256x4096x256_0_1_2 : S256x1x256.BroadcastsInDim S256x4096x256 (![0, 1, 2] : Fin 3 → Fin S256x4096x256.rank)
  bcast_S1x4096x256_S256x4096x256_0_1_2 : S1x4096x256.BroadcastsInDim S256x4096x256 (![0, 1, 2] : Fin 3 → Fin S256x4096x256.rank)
  reducesTo_S256x4096x256_S256x4096_d2 : S256x4096x256.ReducesTo [2] S256x4096
  h_S_ : 0 < S_.numel
  gather_S500x128_S256x1_S256x128_1_0_n_n_0_1_1128_wf : GatherDims.WF S500x128 S256x1 S256x128 [1] [0] [] [0] [] 1 ![1, 128]

variable [Facts₀]

def gather_S500x128_S256x1_S256x128_1_0_n_n_0_1_1128 : GatherDims S500x128 S256x1 S256x128 where
  offsetDims := [1]
  collapsedSliceDims := [0]
  operandBatchingDims := []
  startIndicesBatchingDims := []
  startIndexMap := [0]
  indexVectorDim := 1
  sliceSizes := ![1, 128]
  wf := gather_S500x128_S256x1_S256x128_1_0_n_n_0_1_1128_wf

class Facts : Prop extends Facts₀ where

variable [Facts]
-- ==== Proof.Law.lean ====
/-
  The algebra of the rotated-distance score, on the reals and on extended reals that are real.

  For real vectors `a, a', c, c'` of length 128 (the real and imaginary halves of a rotated head row and of a
  candidate row) the squared Euclidean distance of the 256-vectors `(a | a')` and `(c | c')`,
      Σ (a − c)² + Σ (a' − c')²,
  equals the expansion  (Σ a² + Σ a'²) + (Σ c² + Σ c'²) − 2 (Σ a c + Σ a' c').  The distance is a sum of squares, so it
  is nonnegative and clamping the expansion at zero changes nothing; and `0 − √x = −√x`.  Distributing a product over a
  difference is not a law of the extended reals (it fails at the infinities), which is why the statement is about
  extended reals that are coercions of reals: the coercions are pushed outwards and the identity is proved in ℝ.
-/
import Idealize.ShloMosaic.PureOps.Ideal
import Idealize.ShloMosaic.PureOps.Ideal.Laws

noncomputable section

namespace Cert.RotDist

open Idealize.ShloMosaic

/-- A finite sum of coerced reals is the coercion of the real sum. -/
theorem coe_sum {ι : Type*} (s : Finset ι) (f : ι → ℝ) : ∑ k ∈ s, ((f k : ℝ) : EReal) = ((∑ k ∈ s, f k : ℝ) : EReal) := by
  classical
  refine Finset.induction_on s (by simp) ?_
  intro a s ha ih
  rw [Finset.sum_insert ha, Finset.sum_insert ha, ih, EReal.coe_add]

/-- The maximum of two coerced reals is the coercion of the real maximum. -/
theorem coe_max (x y : ℝ) : max (x : EReal) (y : EReal) = ((max x y : ℝ) : EReal) :=
  (EReal.coe_strictMono.monotone.map_max).symm

/-- The square of a difference, summed: Σ (a − c)² = Σ a² + Σ c² − 2 Σ a c, on the reals. -/
theorem sum_sq_sub {n : ℕ} (a c : Fin n → ℝ) :
    ∑ k, (a k - c k) * (a k - c k) = (∑ k, a k * a k) + (∑ k, c k * c k) - 2 * ∑ k, a k * c k := by
  rw [Finset.mul_sum, ← Finset.sum_add_distrib, ← Finset.sum_sub_distrib]
  exact Finset.sum_congr rfl fun k _ => by ring

/-- The law on the reals: the clamped expansion is the squared distance. -/
theorem real_law {n : ℕ} (a a' c c' : Fin n → ℝ) :
    max ((((∑ k, a k * a k) + ∑ k, a' k * a' k) + ((∑ k, c k * c k) + ∑ k, c' k * c' k))
        - 2 * ((∑ k, a k * c k) + ∑ k, a' k * c' k)) 0
      = 0 + ((∑ k, (a k - c k) * (a k - c k)) + ∑ k, (a' k - c' k) * (a' k - c' k)) := by
  have hnn : 0 ≤ (∑ k, (a k - c k) * (a k - c k)) + ∑ k, (a' k - c' k) * (a' k - c' k) :=
    add_nonneg (Finset.sum_nonneg fun k _ => mul_self_nonneg _) (Finset.sum_nonneg fun k _ => mul_self_nonneg _)
  have he : (((∑ k, a k * a k) + ∑ k, a' k * a' k) + ((∑ k, c k * c k) + ∑ k, c' k * c' k))
        - 2 * ((∑ k, a k * c k) + ∑ k, a' k * c' k)
      = (∑ k, (a k - c k) * (a k - c k)) + ∑ k, (a' k - c' k) * (a' k - c' k) := by
    rw [sum_sq_sub a c, sum_sq_sub a' c']; ring
  rw [he, max_eq_left hnn, zero_add]

/-- The law on extended reals that are real: with `z` the zero and `two` the number two,
    `z − √(max (expansion) z) = −√(z + squared distance)`. -/
theorem ereal_law {n : ℕ} (z two : EReal) (hz : z = 0) (h2 : two = ((2 : ℝ) : EReal)) (a a' c c' : Fin n → ℝ) :
    z - Ideal.sqrt (max ((((∑ k, (a k : EReal) * (a k : EReal)) + ∑ k, (a' k : EReal) * (a' k : EReal))
            + ((∑ k, (c k : EReal) * (c k : EReal)) + ∑ k, (c' k : EReal) * (c' k : EReal)))
          - two * ((∑ k, (a k : EReal) * (c k : EReal)) + ∑ k, (a' k : EReal) * (c' k : EReal))) z)
      = -(Ideal.sqrt (z + ((∑ k, ((a k : EReal) - (c k : EReal)) * ((a k : EReal) - (c k : EReal)))
            + ∑ k, ((a' k : EReal) - (c' k : EReal)) * ((a' k : EReal) - (c' k : EReal))))) := by
  subst hz h2
  rw [← EReal.coe_zero]
  simp only [← EReal.coe_mul, ← EReal.coe_sub, coe_sum, ← EReal.coe_add, coe_max]
  rw [real_law a a' c c']
  have hnn : ¬ (0 + ((∑ k, (a k - c k) * (a k - c k)) + ∑ k, (a' k - c' k) * (a' k - c' k)) < 0) := by
    rw [zero_add]
    exact not_lt.mpr (add_nonneg (Finset.sum_nonneg fun k _ => mul_self_nonneg _) (Finset.sum_nonneg fun k _ => mul_self_nonneg _))
  rw [Ideal.sqrt_coe, if_neg hnn, ← EReal.coe_sub, ← EReal.coe_neg, zero_sub]

end Cert.RotDist

end
-- ==== Proof.Spec.lean ====
/-
  The score as one function of the arrays, in the two arrangements the two programs compute it in.

  A head row `H b` of width 256 is a complex vector of length 128 (real parts in columns 0..127, imaginary parts in
  columns 128..255); the phase row `R b` of width 128 rotates it coordinate by coordinate:
      rotRe b k = H b k · cos (R b k) − H b (128 + k) · sin (R b k),
      rotIm b k = H b k · sin (R b k) + H b (128 + k) · cos (R b k).
  The score of head row `b` against candidate row `q` of `C` is minus the Euclidean distance of the rotated row and the
  candidate row.  `direct` computes the distance as the root of the sum of squared differences; `expanded` as the
  root of |rot|² + |cand|² − 2 ⟨rot, cand⟩ clamped at zero, the inner product being the one a matrix product against
  the transposed candidates gives.  On arrays of real numbers the two agree (`expanded_eq_direct`).
-/
import proofs.«119088_j81595788689595_2_alg».proof.Proof.Law
import Idealize.ShloMosaic.Lib.ValueIdx

noncomputable section

namespace Cert.RotDist

open Idealize.ShloMosaic Idealize.ShloMosaic.ValueIdx

/-- Column `k` of the real half of a 256-wide row. -/
def lo (k : Fin 128) : Fin 256 := ⟨k.val, by omega⟩
/-- Column `k` of the imaginary half of a 256-wide row. -/
def hi (k : Fin 128) : Fin 256 := ⟨128 + k.val, by omega⟩

section
variable {n m : ℕ}
variable (H : (⟨2, ![n, 256]⟩ : Shape).Idx → EReal) (R : (⟨2, ![n, 128]⟩ : Shape).Idx → EReal)
  (C : (⟨2, ![m, 256]⟩ : Shape).Idx → EReal)

/-- The real part of the rotated head row `b` at coordinate `k`. -/
def rotRe (b : Fin n) (k : Fin 128) : EReal :=
  H (ix2 b (lo k)) * Ideal.cos (R (ix2 b k)) - H (ix2 b (hi k)) * Ideal.sin (R (ix2 b k))

/-- The imaginary part of the rotated head row `b` at coordinate `k`. -/
def rotIm (b : Fin n) (k : Fin 128) : EReal :=
  H (ix2 b (lo k)) * Ideal.sin (R (ix2 b k)) + H (ix2 b (hi k)) * Ideal.cos (R (ix2 b k))

/-- The score through the expansion |rot|² + |cand|² − 2 ⟨rot, cand⟩, clamped at `z` (the zero) before the root;
    `two` is the number two. -/
def expanded (z two : EReal) (b : Fin n) (q : Fin m) : EReal :=
  z - Ideal.sqrt (max ((((∑ k, rotRe H R b k * rotRe H R b k) + ∑ k, rotIm H R b k * rotIm H R b k)
        + ((∑ k, C (ix2 q (lo k)) * C (ix2 q (lo k))) + ∑ k, C (ix2 q (hi k)) * C (ix2 q (hi k))))
      - two * ((∑ k, rotRe H R b k * C (ix2 q (lo k))) + ∑ k, rotIm H R b k * C (ix2 q (hi k)))) z)

/-- The score through the sum of squared differences, the real half then the imaginary half, from `z` (the zero). -/
def direct (z : EReal) (b : Fin n) (q : Fin m) : EReal :=
  -(Ideal.sqrt (z + ((∑ k, (rotRe H R b k - C (ix2 q (lo k))) * (rotRe H R b k - C (ix2 q (lo k))))
      + ∑ k, (rotIm H R b k - C (ix2 q (hi k))) * (rotIm H R b k - C (ix2 q (hi k))))))

/-- On arrays whose every entry is a real number the two arrangements are one value: the cosine and sine of a real
    are real, so every rotated coordinate is real, and the law of the reals applies. -/
theorem expanded_eq_direct (z two : EReal) (hz : z = 0) (h2 : two = ((2 : ℝ) : EReal))
    (hH : ∀ j, ∃ r : ℝ, H j = (r : EReal)) (hR : ∀ j, ∃ r : ℝ, R j = (r : EReal)) (hC : ∀ j, ∃ r : ℝ, C j = (r : EReal))
    (b : Fin n) (q : Fin m) : expanded H R C z two b q = direct H R C z b q := by
  choose h hh using hH
  choose r hr using hR
  choose c hc using hC
  have e1 : ∀ k, rotRe H R b k
      = ((h (ix2 b (lo k)) * Real.cos (r (ix2 b k)) - h (ix2 b (hi k)) * Real.sin (r (ix2 b k)) : ℝ) : EReal) := fun k => by
    simp only [rotRe, hh, hr, Ideal.cos_coe, Ideal.sin_coe, ← EReal.coe_mul, ← EReal.coe_sub]
  have e2 : ∀ k, rotIm H R b k
      = ((h (ix2 b (lo k)) * Real.sin (r (ix2 b k)) + h (ix2 b (hi k)) * Real.cos (r (ix2 b k)) : ℝ) : EReal) := fun k => by
    simp only [rotIm, hh, hr, Ideal.cos_coe, Ideal.sin_coe, ← EReal.coe_mul, ← EReal.coe_add]
  unfold expanded direct
  simp only [e1, e2, hc]
  exact ereal_law z two hz h2
    (fun k => h (ix2 b (lo k)) * Real.cos (r (ix2 b k)) - h (ix2 b (hi k)) * Real.sin (r (ix2 b k)))
    (fun k => h (ix2 b (lo k)) * Real.sin (r (ix2 b k)) + h (ix2 b (hi k)) * Real.cos (r (ix2 b k)))
    (fun k => c (ix2 q (lo k))) (fun k => c (ix2 q (hi k)))

end

/-- A sum over the 256 columns is the sum over the real half plus the sum over the imaginary half. -/
theorem sum_halves {M : Type*} [AddCommMonoid M] (f : Fin 256 → M) :
    ∑ κ, f κ = (∑ k : Fin 128, f (lo k)) + ∑ k : Fin 128, f (hi k) :=
  (Fin.sum_univ_add (a := 128) (b := 128) f).trans
    (congrArg₂ (· + ·) (Finset.sum_congr rfl fun _ _ => congrArg f (Fin.ext rfl))
      (Finset.sum_congr rfl fun _ _ => congrArg f (Fin.ext rfl)))

/-- The expansion reads head row `b`, phase row `b` and candidate row `q` only: arrays that agree on those rows give
    the same score (a block of rows against the whole array). -/
theorem expanded_congr {n n' m m' : ℕ}
    (H : (⟨2, ![n, 256]⟩ : Shape).Idx → EReal) (R : (⟨2, ![n, 128]⟩ : Shape).Idx → EReal) (C : (⟨2, ![m, 256]⟩ : Shape).Idx → EReal)
    (H' : (⟨2, ![n', 256]⟩ : Shape).Idx → EReal) (R' : (⟨2, ![n', 128]⟩ : Shape).Idx → EReal) (C' : (⟨2, ![m', 256]⟩ : Shape).Idx → EReal)
    (z two : EReal) (b : Fin n) (b' : Fin n') (q : Fin m) (q' : Fin m')
    (hH : ∀ κ : Fin 256, H (ix2 b κ) = H' (ix2 b' κ)) (hR : ∀ k : Fin 128, R (ix2 b k) = R' (ix2 b' k))
    (hC : ∀ κ : Fin 256, C (ix2 q κ) = C' (ix2 q' κ)) :
    expanded H R C z two b q = expanded H' R' C' z two b' q' := by
  unfold expanded rotRe rotIm
  simp only [hH, hR, hC]

/-! ## The score array -/

/-- The word `0x40000000` of the f32 format is the number two. -/
theorem ofBits_two : Ideal.ofBits .f32 0x40000000#32 = ((2 : ℝ) : EReal) := by
  simp [Ideal.ofBits, Ideal.ieee, -EReal.coe_mul]; norm_num

/-- The scores of 256 head rows against 4096 candidate rows, entry `(b, n)` by the expansion, with the f32 words of
    zero and two. -/
def score (H : (⟨2, ![256, 256]⟩ : Shape).Idx → EReal) (R : (⟨2, ![256, 128]⟩ : Shape).Idx → EReal)
    (C : (⟨2, ![4096, 256]⟩ : Shape).Idx → EReal) : (⟨2, ![256, 4096]⟩ : Shape).Idx → EReal :=
  fun i => expanded (n := 256) (m := 4096) H R C (Ideal.ofBits .f32 0x00000000#32) (Ideal.ofBits .f32 0x40000000#32) (i 0) (i 1)

theorem score_apply (H : (⟨2, ![256, 256]⟩ : Shape).Idx → EReal) (R : (⟨2, ![256, 128]⟩ : Shape).Idx → EReal)
    (C : (⟨2, ![4096, 256]⟩ : Shape).Idx → EReal) (b : Fin 256) (n : Fin 4096) :
    score H R C (ix2 b n)
      = expanded (n := 256) (m := 4096) H R C (Ideal.ofBits .f32 0x00000000#32) (Ideal.ofBits .f32 0x40000000#32) b n := rfl

/-- On arrays of reals the score is minus the distance computed directly. -/
theorem score_eq_direct (H : (⟨2, ![256, 256]⟩ : Shape).Idx → EReal) (R : (⟨2, ![256, 128]⟩ : Shape).Idx → EReal)
    (C : (⟨2, ![4096, 256]⟩ : Shape).Idx → EReal)
    (hH : ∀ j, ∃ r : ℝ, H j = (r : EReal)) (hR : ∀ j, ∃ r : ℝ, R j = (r : EReal)) (hC : ∀ j, ∃ r : ℝ, C j = (r : EReal))
    (b : Fin 256) (n : Fin 4096) :
    score H R C (ix2 b n) = direct (n := 256) (m := 4096) H R C (Ideal.ofBits .f32 0x00000000#32) b n :=
  expanded_eq_direct H R C _ _ Ideal.ofBits_zero_f32 ofBits_two hH hR hC b n

end Cert.RotDist

end
-- ==== Proof.Layout.lean ====
/-
  Layout operations of a keep-dimensions row sum, read at an index: a vector of length `a` recast as a column
  `[a, 1]`, a column broadcast along the rows of `[a, b]`, and a lane sum of a matrix's rows as a sum over the columns.
-/
import Idealize.ShloMosaic.Lib.Pipeline.Value
import Idealize.ShloMosaic.Lib.ValueIdx
import Idealize.ShloMosaic.Lib.ValueLayout
import Idealize.ShloMosaic.PureOps.Ideal.Laws

noncomputable section

namespace Cert.RotDist

open Idealize.ShloMosaic Idealize.ShloMosaic.ValueIdx

section
variable {α : Type}

/-- An `[a]` array recast as the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end

/-- A lane sum of the rows of an `[a, b]` matrix, at the extended reals: row `r`'s entry is the sum over the columns. -/
theorem rowSum_apply {a b : ℕ} (v : FVec Ideal ⟨2, ![a, b]⟩ .f32) (acc : BitVec (FTy.f32).bits)
    (h : (⟨2, ![a, b]⟩ : Shape).Reduces [1] ⟨1, ![a]⟩) (hφ : FKind.Formats .f32) (hacc : acc = FKind.add.neutral .f32 hφ)
    (r : Fin a) : multiReduction .add [1] ⟨1, ![a]⟩ v acc h hφ hacc (ix1 r) = ∑ k : Fin b, v (ix2 r k) := by
  refine (Ideal.multiReduction_add_single v acc h hφ hacc (ix1 r)).trans ?_
  show ∑ k : Fin b, v (h.lift (ix1 r) k) = _
  refine Finset.sum_congr rfl fun k _ => congrArg v (funext fun ax => Fin.ext ?_)
  match ax with
  | ⟨0, _⟩ => rfl
  | ⟨1, _⟩ => rfl

end Cert.RotDist

end
-- ==== Proof.KernelPay.lean ====
/-
  The kernel body's arithmetic, read at an index.

  The body loads a block `x0` of 128 head rows (width 256), the matching block `x1` of 128 phase rows (width 128) and
  all 4096 candidate rows `x2` (width 256).  It rotates each head row by its phases (`rotV`), splits the candidates into
  their halves (`candV`), takes the inner products of rotated rows and candidate rows by two matrix products contracting
  the shared last axis (`inner`), the squared norms by lane sums kept as columns (`headSq`, `candSq`), and stores
  `0 − √(max(|rot|² + |cand|² − 2⟨rot, cand⟩, 0))`.  Read at row `p` and candidate `q` this is `RotDist.expanded` of
  the three blocks.
-/
import proofs.«119088_j81595788689595_2_alg».proof.Proof.Gen.KernelIdeal.Skeleton
import proofs.«119088_j81595788689595_2_alg».proof.Proof.Spec
import proofs.«119088_j81595788689595_2_alg».proof.Proof.Layout

noncomputable section

namespace Cert.KernelIdeal.Pay

open Cert.KernelIdeal Cert.KernelIdeal.Gen Cert.RotDist Idealize.ShloMosaic Idealize.ShloMosaic.ValueIdx

variable (x0 : FVec Ideal S128x256 .f32) (x1 : FVec Ideal S128x128 .f32) (x2 : FVec Ideal S4096x256 .f32)

/-! ## The body's intermediate vectors, named -/

/-- The rotated head rows' real parts. -/
def rotReV : FVec Ideal S128x128 .f32 :=
  subf (mulf (extractStridedSlice S128x128 ![0, 0] x0 slices_S128x256_o0_0_S128x128) (cos (shapeCast S128x128 x1 shapeCasts_S128x128_S128x128)))
    (mulf (extractStridedSlice S128x128 ![0, 128] x0 slices_S128x256_o0_128_S128x128) (sin (shapeCast S128x128 x1 shapeCasts_S128x128_S128x128)))

/-- The rotated head rows' imaginary parts. -/
def rotImV : FVec Ideal S128x128 .f32 :=
  addf (mulf (extractStridedSlice S128x128 ![0, 0] x0 slices_S128x256_o0_0_S128x128) (sin (shapeCast S128x128 x1 shapeCasts_S128x128_S128x128)))
    (mulf (extractStridedSlice S128x128 ![0, 128] x0 slices_S128x256_o0_128_S128x128) (cos (shapeCast S128x128 x1 shapeCasts_S128x128_S128x128)))

/-- The candidates' real halves. -/
def candReV : FVec Ideal S4096x128 .f32 :=
  extractStridedSlice S4096x128 ![0, 0] (shapeCast S4096x256 x2 shapeCasts_S4096x256_S4096x256) slices_S4096x256_o0_0_S4096x128

/-- The candidates' imaginary halves. -/
def candImV : FVec Ideal S4096x128 .f32 :=
  extractStridedSlice S4096x128 ![0, 128] (shapeCast S4096x256 x2 shapeCasts_S4096x256_S4096x256) slices_S4096x256_o0_128_S4096x128

/-- The inner products of rotated rows and candidate rows: two matrix products onto zero, added. -/
def inner : FVec Ideal S128x4096 .f32 :=
  addf (matmul dot_S128x128_S4096x128_S128x4096_1_1_0_0_n_n (some .fp32) (rotReV x0 x1) (candReV x2) (constant S128x4096 .f32 0x00000000#32))
    (matmul dot_S128x128_S4096x128_S128x4096_1_1_0_0_n_n (some .fp32) (rotImV x0 x1) (candImV x2) (constant S128x4096 .f32 0x00000000#32))

/-- The rotated rows' squared norms, as a column. -/
def headSq : FVec Ideal S128x1 .f32 :=
  addf (shapeCast S128x1 (multiReduction .add [1] S128 (mulf (rotReV x0 x1) (rotReV x0 x1)) 0x00000000#32 reduces_S128x128_S128 (.inl rfl) rfl) shapeCasts_S128_S128x1)
    (shapeCast S128x1 (multiReduction .add [1] S128 (mulf (rotImV x0 x1) (rotImV x0 x1)) 0x00000000#32 reduces_S128x128_S128 (.inl rfl) rfl) shapeCasts_S128_S128x1)

/-- The candidate rows' squared norms, as a column. -/
def candSq : FVec Ideal S4096x1 .f32 :=
  addf (shapeCast S4096x1 (multiReduction .add [1] S4096 (mulf (candReV x2) (candReV x2)) 0x00000000#32 reduces_S4096x128_S4096 (.inl rfl) rfl) shapeCasts_S4096_S4096x1)
    (shapeCast S4096x1 (multiReduction .add [1] S4096 (mulf (candImV x2) (candImV x2)) 0x00000000#32 reduces_S4096x128_S4096 (.inl rfl) rfl) shapeCasts_S4096_S4096x1)

/-- The distances: the root of the clamped expansion. -/
def dist : FVec Ideal S128x4096 .f32 :=
  sqrt (maximumf
    (subf (addf (broadcastTo S128x4096 (headSq x0 x1) broadcasts_S128x1_S128x4096)
        (broadcastTo S128x4096 (transpose S1x4096 [1, 0] (candSq x2) transposes_S4096x1_p1_0_S1x4096) broadcasts_S1x4096_S128x4096))
      (mulf (broadcast S128x4096 (Scalar.ofBits .f32 0x40000000#32)) (inner x0 x1 x2)))
    (broadcast S128x4096 (Scalar.ofBits .f32 0x00000000#32)))

/-- The body's payload is the distances, by unfolding its lines. -/
theorem pay2_eq : k0_pay2 x0 x1 x2 = dist x0 x1 x2 := rfl

/-! ## Each of them at an index -/

theorem rotReV_apply (p k : Fin 128) : rotReV x0 x1 (ix2 p k) = rotRe (n := 128) x0 x1 p k := by
  show extractStridedSlice S128x128 ![0, 0] x0 _ (ix2 p k) * Ideal.cos (shapeCast S128x128 x1 _ (ix2 p k))
      - extractStridedSlice S128x128 ![0, 128] x0 _ (ix2 p k) * Ideal.sin (shapeCast S128x128 x1 _ (ix2 p k)) = _
  rw [shapeCast_self, slice2_axis1_apply 0 x0 _ p k (lo k) (Nat.zero_add _).symm,
    slice2_axis1_apply 128 x0 _ p k (hi k) rfl]
  rfl

theorem rotImV_apply (p k : Fin 128) : rotImV x0 x1 (ix2 p k) = rotIm (n := 128) x0 x1 p k := by
  show extractStridedSlice S128x128 ![0, 0] x0 _ (ix2 p k) * Ideal.sin (shapeCast S128x128 x1 _ (ix2 p k))
      + extractStridedSlice S128x128 ![0, 128] x0 _ (ix2 p k) * Ideal.cos (shapeCast S128x128 x1 _ (ix2 p k)) = _
  rw [shapeCast_self, slice2_axis1_apply 0 x0 _ p k (lo k) (Nat.zero_add _).symm,
    slice2_axis1_apply 128 x0 _ p k (hi k) rfl]
  rfl

theorem candReV_apply (q : Fin 4096) (k : Fin 128) : candReV x2 (ix2 q k) = x2 (ix2 q (lo k)) := by
  unfold candReV
  rw [shapeCast_self]
  exact slice2_axis1_apply 0 x2 _ q k (lo k) (Nat.zero_add _).symm

theorem candImV_apply (q : Fin 4096) (k : Fin 128) : candImV x2 (ix2 q k) = x2 (ix2 q (hi k)) := by
  unfold candImV
  rw [shapeCast_self]
  exact slice2_axis1_apply 128 x2 _ q k (hi k) rfl

/-- A matrix product of a `[128, 128]` matrix with the transpose of a `[4096, 128]` one (both contract their last axis)
    onto zero, at `(p, q)`: the sum over the shared axis of the products of row `p` and row `q`. -/
theorem matmul_nt_apply (l : FVec Ideal S128x128 .f32) (r : FVec Ideal S4096x128 .f32) (p : Fin 128) (q : Fin 4096) :
    matmul dot_S128x128_S4096x128_S128x4096_1_1_0_0_n_n (some .fp32) l r (constant S128x4096 .f32 0x00000000#32) (ix2 p q)
      = ∑ k : Fin 128, l (ix2 p k) * r (ix2 q k) := by
  refine (Ideal.matmul_constant_zero_apply dot_S128x128_S4096x128_S128x4096_1_1_0_0_n_n (some .fp32) l r (ix2 p q)).trans ?_
  refine (Equiv.sum_comp (contrEquiv1 dot_S128x128_S4096x128_S128x4096_1_1_0_0_n_n 128 rfl rfl).symm
    (fun k => l (dot_S128x128_S4096x128_S128x4096_1_1_0_0_n_n.lhsIdx (ix2 p q) k)
      * r (dot_S128x128_S4096x128_S128x4096_1_1_0_0_n_n.rhsIdx (ix2 p q) k))).symm.trans ?_
  refine Finset.sum_congr rfl fun k _ => ?_
  have hl : dot_S128x128_S4096x128_S128x4096_1_1_0_0_n_n.lhsIdx (ix2 p q)
      ((contrEquiv1 dot_S128x128_S4096x128_S128x4096_1_1_0_0_n_n 128 rfl rfl).symm k) = ix2 p k := by
    funext ax
    refine Fin.ext ?_
    match ax with
    | ⟨0, _⟩ => simp [DotDims.lhsIdx, dot_S128x128_S4096x128_S128x4096_1_1_0_0_n_n]; rfl
    | ⟨1, _⟩ =>
      refine (DotDims.lhsIdx_val_of_single dot_S128x128_S4096x128_S128x4096_1_1_0_0_n_n (cl := (1 : Fin 2)) rfl (ix2 p q) _).trans ?_
      exact contrEquiv1_symm_val _ 128 rfl rfl k
  have hr : dot_S128x128_S4096x128_S128x4096_1_1_0_0_n_n.rhsIdx (ix2 p q)
      ((contrEquiv1 dot_S128x128_S4096x128_S128x4096_1_1_0_0_n_n 128 rfl rfl).symm k) = ix2 q k := by
    funext ax
    refine Fin.ext ?_
    match ax with
    | ⟨0, _⟩ => simp [DotDims.rhsIdx, dot_S128x128_S4096x128_S128x4096_1_1_0_0_n_n]; rfl
    | ⟨1, _⟩ =>
      refine (DotDims.rhsIdx_val_of_single dot_S128x128_S4096x128_S128x4096_1_1_0_0_n_n (cr := (1 : Fin 2)) rfl (ix2 p q) _).trans ?_
      exact contrEquiv1_symm_val _ 128 rfl rfl k
  show l _ * r _ = _
  rw [hl, hr]

theorem inner_apply (p : Fin 128) (q : Fin 4096) :
    inner x0 x1 x2 (ix2 p q) = (∑ k, rotRe (n := 128) x0 x1 p k * x2 (ix2 q (lo k))) + ∑ k, rotIm (n := 128) x0 x1 p k * x2 (ix2 q (hi k)) := by
  show matmul _ _ (rotReV x0 x1) (candReV x2) _ (ix2 p q) + matmul _ _ (rotImV x0 x1) (candImV x2) _ (ix2 p q) = _
  rw [matmul_nt_apply, matmul_nt_apply]
  simp only [rotReV_apply, rotImV_apply, candReV_apply, candImV_apply]

theorem headSq_apply (p : Fin 128) (u : Fin 1) :
    headSq x0 x1 (ix2 p u) = (∑ k, rotRe (n := 128) x0 x1 p k * rotRe (n := 128) x0 x1 p k) + ∑ k, rotIm (n := 128) x0 x1 p k * rotIm (n := 128) x0 x1 p k := by
  show shapeCast S128x1 _ _ (ix2 p u) + shapeCast S128x1 _ _ (ix2 p u) = _
  rw [shapeCast_a_a1_apply, shapeCast_a_a1_apply]
  refine congrArg₂ (· + ·) ((rowSum_apply _ _ _ _ _ p).trans ?_) ((rowSum_apply _ _ _ _ _ p).trans ?_)
  · simp only [mulf_apply, rotReV_apply]
  · simp only [mulf_apply, rotImV_apply]

theorem candSq_apply (q : Fin 4096) (u : Fin 1) :
    candSq x2 (ix2 q u) = (∑ k, x2 (ix2 q (lo k)) * x2 (ix2 q (lo k))) + ∑ k, x2 (ix2 q (hi k)) * x2 (ix2 q (hi k)) := by
  show shapeCast S4096x1 _ _ (ix2 q u) + shapeCast S4096x1 _ _ (ix2 q u) = _
  rw [shapeCast_a_a1_apply, shapeCast_a_a1_apply]
  refine congrArg₂ (· + ·) ((rowSum_apply _ _ _ _ _ q).trans ?_) ((rowSum_apply _ _ _ _ _ q).trans ?_)
  · simp only [mulf_apply, candReV_apply]
  · simp only [mulf_apply, candImV_apply]

/-- The stored value at row `p`, candidate `q`: the expansion of the three blocks. -/
theorem pay_apply (p : Fin 128) (q : Fin 4096) :
    k0_pay1 (F := Ideal) (k0_pay2 x0 x1 x2) (Scalar.ofBits .f32 0x00000000#32) (ix2 p q)
      = expanded (n := 128) (m := 4096) x0 x1 x2 (Ideal.ofBits .f32 0x00000000#32) (Ideal.ofBits .f32 0x40000000#32) p q := by
  rw [pay2_eq]
  show Ideal.ofBits .f32 0x00000000#32
      - Ideal.sqrt (max ((broadcastTo S128x4096 (headSq x0 x1) _ (ix2 p q)
            + broadcastTo S128x4096 (transpose S1x4096 [1, 0] (candSq x2) _) _ (ix2 p q))
          - Ideal.ofBits .f32 0x40000000#32 * inner x0 x1 x2 (ix2 p q)) (Ideal.ofBits .f32 0x00000000#32)) = _
  rw [broadcastTo_a1_ab_apply, broadcastTo_1b_ab_apply, transpose_ix2_apply, headSq_apply, candSq_apply,
    inner_apply]
  rfl

end Cert.KernelIdeal.Pay

end
-- ==== Proof.KernelValue.lean ====
/-
  The kernel's output array, as one function of the arrays the region finds.

  The grid has two points; point `t` works on head rows `128 t … 128 t + 127` (a block of the head array and the
  matching block of the gathered phases), on all the candidates, and writes rows `128 t … 128 t + 127` of the output.
  What it writes at row `p` of its block and candidate `q` is the expansion of its three blocks at `(p, q)`, which
  reads block row `p`, that is array row `128 t + p`: so every point writes its block of ONE array, `RotDist.score`,
  and the two blocks cover the 256 rows.
-/
import proofs.«119088_j81595788689595_2_alg».proof.Proof.Gen.KernelIdeal.Value
import proofs.«119088_j81595788689595_2_alg».proof.Proof.KernelPay
import Idealize.ShloMosaic.Lib.StableHlo.Run

noncomputable section

namespace Cert.KernelIdeal.ArrValue

open Cert.KernelIdeal Cert.KernelIdeal.Gen Cert.RotDist
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The index maps over the two points: the head, phase and output windows move down one block per point, the
    candidate window stays. -/
theorem index_maps : ∀ t : Fin cfg0.N, t.val < 2
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One stored entry: blocks that are rows `b` of the arrays (at block row `p`) store the score of row `b`. -/
theorem stored_entry (x0 : FVec Ideal S128x256 .f32) (x1 : FVec Ideal S128x128 .f32) (x2 : FVec Ideal S4096x256 .f32)
    (H : FVec Ideal S256x256 .f32) (R : FVec Ideal S256x128 .f32) (C : FVec Ideal S4096x256 .f32)
    (p : Fin 128) (q : Fin 4096) (b : Fin 256)
    (h0 : ∀ κ : Fin 256, x0 (ix2 p κ) = H (ix2 b κ)) (h1 : ∀ k : Fin 128, x1 (ix2 p k) = R (ix2 b k))
    (h2 : ∀ κ : Fin 256, x2 (ix2 q κ) = C (ix2 q κ)) :
    k0_pay1 (F := Ideal) (k0_pay2 x0 x1 x2) (Scalar.ofBits .f32 0x00000000#32) (ix2 p q) = score H R C (ix2 b q) :=
  (Pay.pay_apply x0 x1 x2 p q).trans (expanded_congr x0 x1 x2 H R C _ _ p b q q h0 h1 h2)

/-- WHAT POINT `t` WRITES BACK is block `t` of the score array of the arrays the region finds. -/
theorem flushed_eq (c : Dev nD) (t : Fin cfg0.N) :
    (dats m 0 c).flushed 3 t
      = ((cfg0.win 3).blk t).view.read (Elt Ideal) (score (V m c main_arg0) (V m c main_v6) (V m c main_v7)) := by
  show (cfg0.win 3).cut (grid0.coords t) ((dats m 0 c).after 3 t) = _
  rw [after0_3]
  unfold out0_3
  rw [View.canon_unit_zero offsets_zero]
  simp only [View.ld_unit_zero (S := S128x256) offsets_zero, View.ld_unit_zero (S := S128x128) offsets_zero,
    View.ld_unit_zero (S := S4096x256) offsets_zero]
  obtain ⟨ht, e00, e01, e10, e11, e20, e21, e30, e31⟩ := index_maps t
  funext y
  obtain ⟨p, q, rfl⟩ : ∃ (p : Fin 128) (q : Fin 4096), y = ix2 p q := ⟨y 0, y 1, eq_ix2 y⟩
  have hemb : ((cfg0.win 3).blk t).view.emb (ix2 p q) = ix2 (⟨t.val * 128 + p.val, by omega⟩ : Fin 256) q := by
    funext a; apply Fin.ext
    match a with
    | ⟨0, _⟩ => show win0_3.index t (0 : Fin 2) * 128 + 1 * p.val = t.val * 128 + p.val; omega
    | ⟨1, _⟩ => show win0_3.index t (1 : Fin 2) * 4096 + 1 * q.val = q.val; omega
  show k0_pay1 (F := Ideal) (k0_pay2 (iblk m c 0 t) (iblk m c 1 t) (iblk m c 2 t)) (Scalar.ofBits .f32 0x00000000#32) (ix2 p q)
      = score (V m c main_arg0) (V m c main_v6) (V m c main_v7) (((cfg0.win 3).blk t).view.emb (ix2 p q))
  rw [hemb]
  refine stored_entry (iblk m c 0 t) (iblk m c 1 t) (iblk m c 2 t) (V m c main_arg0) (V m c main_v6) (V m c main_v7) p q
    ⟨t.val * 128 + p.val, by omega⟩ (fun κ => ?_) (fun k => ?_) (fun κ => ?_)
  · show V m c main_arg0 (((cfg0.win 0).blk t).view.emb (ix2 p κ)) = V m c main_arg0 (ix2 ⟨t.val * 128 + p.val, by omega⟩ κ)
    refine congrArg (V m c main_arg0) (funext fun a => Fin.ext ?_)
    match a with
    | ⟨0, _⟩ => show win0_0.index t (0 : Fin 2) * 128 + 1 * p.val = t.val * 128 + p.val; omega
    | ⟨1, _⟩ => show win0_0.index t (1 : Fin 2) * 256 + 1 * κ.val = κ.val; omega
  · show V m c main_v6 (((cfg0.win 1).blk t).view.emb (ix2 p k)) = V m c main_v6 (ix2 ⟨t.val * 128 + p.val, by omega⟩ k)
    refine congrArg (V m c main_v6) (funext fun a => Fin.ext ?_)
    match a with
    | ⟨0, _⟩ => show win0_1.index t (0 : Fin 2) * 128 + 1 * p.val = t.val * 128 + p.val; omega
    | ⟨1, _⟩ => show win0_1.index t (1 : Fin 2) * 128 + 1 * k.val = k.val; omega
  · show V m c main_v7 (((cfg0.win 2).blk t).view.emb (ix2 q κ)) = V m c main_v7 (ix2 q κ)
    refine congrArg (V m c main_v7) (funext fun a => Fin.ext ?_)
    match a with
    | ⟨0, _⟩ => show win0_2.index t (0 : Fin 2) * 4096 + 1 * q.val = q.val; omega
    | ⟨1, _⟩ => show win0_2.index t (1 : Fin 2) * 256 + 1 * κ.val = κ.val; omega

/-- An index of the output array is in point `t`'s block iff each coordinate is in the block's range on its axis. -/
theorem mem_blk (t : Fin cfg0.N) (i : S256x4096.Idx) :
    i ∈ ((cfg0.win 3).blk t).view.set ↔ ∀ a : Fin 2, win0_3.index t a * S128x4096.size a ≤ (i a).val
      ∧ (i a).val < win0_3.index t a * S128x4096.size a + S128x4096.size a := by
  show i ∈ ((View.whole main_v8).slice (win0_3.rect t)).set ↔ _
  rw [View.set_slice_whole, Rect.mem_set_unit]
  exact Iff.rfl

/-- The two blocks cover the output array: row `r` is in the block of point `r / 128`. -/
theorem cover (i : S256x4096.Idx) : ∃ t : Fin cfg0.N, (cfg0.win 3).flush t = true ∧ i ∈ ((cfg0.win 3).blk t).view.set := by
  have hi0 : (i 0).val < 256 := (i 0).isLt
  have hi1 : (i 1).val < 4096 := (i 1).isLt
  have hN : cfg0.N = 2 := N_0
  obtain ⟨t, ht⟩ : ∃ t : Fin cfg0.N, t.val = (i 0).val / 128 := ⟨⟨(i 0).val / 128, by rw [hN]; omega⟩, rfl⟩
  obtain ⟨-, -, -, -, -, -, -, e30, e31⟩ := index_maps t
  refine ⟨t, flush0_3 t, ?_⟩
  rw [mem_blk]
  intro a
  match a with
  | ⟨0, _⟩ =>
    show win0_3.index t (0 : Fin 2) * 128 ≤ (i 0).val ∧ (i 0).val < win0_3.index t (0 : Fin 2) * 128 + 128
    omega
  | ⟨1, _⟩ =>
    show win0_3.index t (1 : Fin 2) * 4096 ≤ (i 1).val ∧ (i 1).val < win0_3.index t (1 : Fin 2) * 4096 + 4096
    omega

/-- THE OUTPUT ARRAY after the run: the score array of the arrays the region finds. -/
theorem final (c : Dev nD) :
    (dats m 0 c).arrAt 3 cfg0.N = score (V m c main_arg0) (V m c main_v6) (V m c main_v7) :=
  (dats m 0 c).arrAt_eq_of_cover 3 _ (fun t _ => flushed_eq m c t) cover

/-! ## The arrays the region finds, from the arguments -/

/-- The phases of the 256 head rows: the rows of the phase table gathered at the relation ids, an id below zero
    counted from the table's end. -/
def phases (ids : IVec S256 32) (table : FVec Ideal S500x128 .f32) : FVec Ideal S256x128 .f32 :=
  Host.gather gather_S500x128_S256x1_S256x128_1_0_n_n_0_1_1128 table
    (broadcastInDim S256x1 ![0] bcast_S256_S256x1_0
      (select (cmpi .slt ids (broadcastInDim S256 ![] bcast_S_S256 (constantI S_ 32 0#32)))
        (addi ids (broadcastInDim S256 ![] bcast_S_S256 (constantI S_ 32 500#32))) ids))

/-- Every phase is an entry of the table. -/
theorem phases_mem (ids : IVec S256 32) (table : FVec Ideal S500x128 .f32) (j : S256x128.Idx) :
    ∃ i, phases ids table j = table i := ⟨_, rfl⟩

/-- The candidates as 4096 rows: the `[1, 4096, 256]` argument recast. -/
def candRows (tails : FVec Ideal S1x4096x256 .f32) : FVec Ideal S4096x256 .f32 :=
  shapeCast S4096x256 tails shapeCasts_S1x4096x256_S4096x256

theorem V_phases (c : Dev nD) :
    (V m c main_v6 : S256x128.Idx → EReal)
      = phases (m ((c : Thread nD τ).loc main_arg1)) (m ((c : Thread nD τ).loc main_arg3)) := by
  dsimp only [Gen.V, Gen.hostOps0]; after_results; rfl

theorem V_candRows (c : Dev nD) :
    (V m c main_v7 : S4096x256.Idx → EReal) = candRows (m ((c : Thread nD τ).loc main_arg2)) := by
  dsimp only [Gen.V, Gen.hostOps0]; after_results; rfl

/-! ## The run, read -/

/-- The kernel program's run: the result array ends at the score array of the arguments, the arguments unchanged. -/
theorem run : θ_run defs (onTc (τ := τ) (main (F := Ideal))) ⟨m, fun _ => 0, ρ⟩ fun r => ∀ c : Dev nD,
      r.2.mem ((c : Thread nD τ).loc main_v8)
        = score (m ((c : Thread nD τ).loc main_arg0))
            (phases (m ((c : Thread nD τ).loc main_arg1)) (m ((c : Thread nD τ).loc main_arg3)))
            (candRows (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (by rw [V_main_arg0, V_phases, V_candRows])), (h c).2⟩)
    (Value.run_blocks m ρ)

end Cert.KernelIdeal.ArrValue

end
-- ==== Proof.RefValue.lean ====
/-
  The reference's result, read at an index.

  The host program rotates every head row by its phases, joins the real and imaginary parts into one 256-wide row,
  subtracts every candidate row from every rotated row, squares, sums over the 256 columns from zero, takes the root
  and negates.  Read at head row `b` and candidate `n`, the sum over the 256 columns is the sum over the real half
  (columns `lo k`, where the joined row is the rotation's real part) plus the sum over the imaginary half (columns
  `hi k`), which is `RotDist.direct` of the head array, the gathered phases and the candidates laid out as rows.
-/
import proofs.«119088_j81595788689595_2_alg».proof.Proof.Gen.ReferenceIdeal.Read
import proofs.«119088_j81595788689595_2_alg».proof.Proof.Spec

noncomputable section

namespace Cert.ReferenceIdeal.RefValue

open Cert.ReferenceIdeal Cert.ReferenceIdeal.Gen Cert.ReferenceIdeal.Read Cert.RotDist
open Idealize.ShloMosaic Idealize.ShloMosaic.ValueIdx

variable (x0 : FVec Ideal S256x256 .f32) (x1 : IVec S256 32) (x2 : FVec Ideal S1x4096x256 .f32) (x3 : FVec Ideal S500x128 .f32)

/-! ## The composed index maps at `(b, n, κ)` -/

theorem idx_head (b : Fin 256) (n : Fin 4096) (κ : Fin 256) :
    idx_main_v19 (idx_main_v21 (idx_main_v25 (ix2 b n) κ)) = ix2 b κ :=
  funext fun a => Fin.ext (by match a with | ⟨0, _⟩ => rfl | ⟨1, _⟩ => rfl)

theorem idx_cand (b : Fin 256) (n : Fin 4096) (κ : Fin 256) :
    idx_main_v20 (idx_main_v22 (idx_main_v25 (ix2 b n) κ)) = ix2 n κ :=
  funext fun a => Fin.ext (by match a with | ⟨0, _⟩ => rfl | ⟨1, _⟩ => rfl)

theorem idx_re (b : Fin 256) (k : Fin 128) : idx_main_v7 (ix2 b k) = ix2 b (lo k) :=
  funext fun a => Fin.ext (by match a with | ⟨0, _⟩ => rfl | ⟨1, _⟩ => rfl)

theorem idx_im (b : Fin 256) (k : Fin 128) : idx_main_v8 (ix2 b k) = ix2 b (hi k) :=
  funext fun a => Fin.ext (by match a with | ⟨0, _⟩ => rfl | ⟨1, _⟩ => rfl)

/-! ## The joined rotated row: its real half and its imaginary half -/

/-- In the real half the joined row is the rotation's real part. -/
theorem joined_lo (b : Fin 256) (k : Fin 128) :
    val_main_v17 (F := Ideal) x0 x1 x3 (ix2 b (lo k)) = rotRe (n := 256) x0 (val_main_v6 (F := Ideal) x1 x3) b k := by
  unfold val_main_v17
  refine (concatenate_pair_apply_left (t := S256x256) (s₁ := S256x128) (s₂ := S256x128) (1 : Fin 2) _ _ concatenates_S256x128_S256x128_S256x256_d1 (ix2 b (lo k)) rfl (ix2 b k)
    (fun a => by match a with | ⟨0, _⟩ => rfl | ⟨1, _⟩ => rfl)).trans ?_
  show val_main_v7 (F := Ideal) x0 (ix2 b k) * Ideal.cos (val_main_v6 (F := Ideal) x1 x3 (ix2 b k))
      - val_main_v8 (F := Ideal) x0 (ix2 b k) * Ideal.sin (val_main_v6 (F := Ideal) x1 x3 (ix2 b k)) = _
  rw [val_main_v7_apply, val_main_v8_apply, idx_re, idx_im]
  rfl

/-- In the imaginary half the joined row is the rotation's imaginary part. -/
theorem joined_hi (b : Fin 256) (k : Fin 128) :
    val_main_v17 (F := Ideal) x0 x1 x3 (ix2 b (hi k)) = rotIm (n := 256) x0 (val_main_v6 (F := Ideal) x1 x3) b k := by
  unfold val_main_v17
  refine (concatenate_pair_apply_right (t := S256x256) (s₁ := S256x128) (s₂ := S256x128) (1 : Fin 2) _ _ concatenates_S256x128_S256x128_S256x256_d1 (ix2 b (hi k)) rfl rfl (ix2 b k)
    (fun a => by match a with | ⟨0, _⟩ => exact fun _ => rfl | ⟨1, _⟩ => exact fun h => absurd rfl h)
    (by show k.val + 128 = 128 + k.val; omega)).trans ?_
  show val_main_v7 (F := Ideal) x0 (ix2 b k) * Ideal.sin (val_main_v6 (F := Ideal) x1 x3 (ix2 b k))
      + val_main_v8 (F := Ideal) x0 (ix2 b k) * Ideal.cos (val_main_v6 (F := Ideal) x1 x3 (ix2 b k)) = _
  rw [val_main_v7_apply, val_main_v8_apply, idx_re, idx_im]
  rfl

/-- The squared difference at `(b, n, κ)`: the joined row at `(b, κ)` less the candidate row at `(n, κ)`, squared. -/
theorem sqdiff_apply (b : Fin 256) (n : Fin 4096) (κ : Fin 256) :
    val_main_v24 (F := Ideal) x0 x1 x2 x3 (idx_main_v25 (ix2 b n) κ)
      = (val_main_v17 (F := Ideal) x0 x1 x3 (ix2 b κ) - val_main_v18 (F := Ideal) x2 (ix2 n κ))
        * (val_main_v17 (F := Ideal) x0 x1 x3 (ix2 b κ) - val_main_v18 (F := Ideal) x2 (ix2 n κ)) := by
  rw [val_main_v24_apply, val_main_v23_apply, val_main_v21_apply, val_main_v19_apply, val_main_v22_apply, val_main_v20_apply,
    idx_head, idx_cand]
  rfl

/-- THE REFERENCE AT `(b, n)`: minus the root of the sum of squared differences, half by half. -/
theorem ref_apply (b : Fin 256) (n : Fin 4096) :
    val_main_v27 (F := Ideal) x0 x1 x2 x3 (ix2 b n)
      = direct (n := 256) (m := 4096) x0 (val_main_v6 (F := Ideal) x1 x3) (val_main_v18 (F := Ideal) x2)
          (Ideal.ofBits .f32 0x00000000#32) b n := by
  rw [val_main_v27_apply, val_main_v26_apply, val_main_v25_apply, sum_halves]
  simp only [sqdiff_apply, joined_lo, joined_hi]
  rfl

end Cert.ReferenceIdeal.RefValue

end
-- ==== Proof.Finite.lean ====
/-
  What the precondition says: every entry of the three float arguments is a real number.

  The precondition is the conjunction of three `all(|x| < +∞)`, each a reduction by `and` of the comparisons' bits from
  the bit 1.  The result being 1 means every compared entry has its absolute value `max x (−x)` strictly below `+∞`,
  which excludes both infinities: the entry is the coercion of a real.
-/
import proofs.«119088_j81595788689595_2_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic Idealize.ShloMosaic.ValueIdx

instance : Subsingleton S_.Idx := ⟨fun _ _ => funext fun d => d.elim0⟩

/-- The f32 word `0x7F800000` is `+∞`. -/
theorem ofBits_inf : Ideal.ofBits .f32 0x7F800000#32 = ⊤ := by simp [Ideal.ofBits, Ideal.ieee]

/-- An extended real whose absolute value compares strictly below `+∞` is a real. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | top => simp [Ideal.cmp] at h
  | coe r => exact ⟨r, rfl⟩

variable [Facts]

/-- Under the precondition every entry of the head array, of the candidate array and of the phase table is real. -/
theorem real_of_pre (a0 : FVec Ideal S256x256 .f32) (a1 : IVec S256 32) (a2 : FVec Ideal S1x4096x256 .f32)
    (a3 : FVec Ideal S500x128 .f32) (h : fn (F := Ideal) a0 a1 a2 a3 = fun _ => 1#1) :
    (∀ j, ∃ r : ℝ, a0 j = (r : EReal)) ∧ (∀ j, ∃ r : ℝ, a2 j = (r : EReal)) ∧ (∀ j, ∃ r : ℝ, a3 j = (r : EReal)) := by
  have h0 := congrFun h ix0
  dsimp only [fn] at h0
  obtain ⟨h01, h3⟩ := IntOp.andi_eq_one.1 h0
  obtain ⟨h1, h2⟩ := IntOp.andi_eq_one.1 h01
  exact ⟨fun j => real_of_abs_lt _ (Host.reduce_andi_all _ _ _ _ _ h1 j),
    fun j => real_of_abs_lt _ (Host.reduce_andi_all _ _ _ _ _ h2 j),
    fun j => real_of_abs_lt _ (Host.reduce_andi_all _ _ _ _ _ h3 j)⟩

end Cert.Pre_finite_inputs.Finite

end
-- ==== Proof.lean ====
/-
  RotatE scoring with shared negatives, 2-norm: the kernel against its reference, over the extended reals.

  Both programs gather one phase row per head row from the phase table (an id below zero counted from the table's
  end) and lay the candidates out as 4096 rows of width 256; these host steps are the same operations in both, and
  are carried as the two functions `phases` and `candRows` of the arguments, never opened except to see that a
  gathered phase is an entry of the table and a candidate entry an entry of the argument.

  The reference rotates each head row (a complex vector of length 128 stored as real half | imaginary half) by its
  phases and returns minus the Euclidean distance to each candidate row, `−√(Σ (rot − cand)²)`.  The kernel, on a
  grid of two blocks of 128 head rows, computes `0 − √(max(|rot|² + |cand|² − 2⟨rot, cand⟩, 0))`, the inner products
  by two matrix products contracting the candidates' last axis.  On the reals the expansion equals the sum of squares,
  which is nonnegative, so the clamp is the identity; on the extended reals the expansion needs every rotated
  coordinate and every candidate entry to be real, which the precondition gives (finite head, candidate and table
  entries; cosine and sine of a real are real).  There is no rewrite by the ideal pass, so `preserves` is trivial.

  Kernel side: the generated frame run with the output array named (`Value.run_blocks`), and by hand the stored value
  at an index (KernelPay), each point's block as a block of one array and the cover (KernelValue).  Reference side: the
  generated run and its read-at-an-index lemmas, and by hand the joined row and the split of the 256-column sum
  (RefValue).  The law between the two arrangements is Law and Spec; what the precondition says is Finite.
-/
import proofs.«119088_j81595788689595_2_alg».proof.Defs
import proofs.«119088_j81595788689595_2_alg».proof.Proof.Gen.Kernel
import proofs.«119088_j81595788689595_2_alg».proof.Proof.Gen.Kernel.Skeleton
import proofs.«119088_j81595788689595_2_alg».proof.Proof.Gen.Kernel.Launch
import proofs.«119088_j81595788689595_2_alg».proof.Proof.Gen.Kernel.Points
import proofs.«119088_j81595788689595_2_alg».proof.Proof.Gen.Kernel.Frame
import proofs.«119088_j81595788689595_2_alg».proof.Proof.Gen.KernelIdeal
import proofs.«119088_j81595788689595_2_alg».proof.Proof.Gen.KernelIdeal.Skeleton
import proofs.«119088_j81595788689595_2_alg».proof.Proof.Gen.KernelIdeal.Launch
import proofs.«119088_j81595788689595_2_alg».proof.Proof.Gen.KernelIdeal.Points
import proofs.«119088_j81595788689595_2_alg».proof.Proof.Gen.KernelIdeal.Frame
import proofs.«119088_j81595788689595_2_alg».proof.Proof.Gen.ReferenceIdeal
import proofs.«119088_j81595788689595_2_alg».proof.Proof.Gen.KernelIdeal.Value
import proofs.«119088_j81595788689595_2_alg».proof.Proof.Gen.ReferenceIdeal.Run
import proofs.«119088_j81595788689595_2_alg».proof.Proof.Gen.ReferenceIdeal.Read
import proofs.«119088_j81595788689595_2_alg».proof.Proof.Gen.Pre_finite_inputs
import proofs.«119088_j81595788689595_2_alg».proof.Proof.KernelValue
import proofs.«119088_j81595788689595_2_alg».proof.Proof.RefValue
import proofs.«119088_j81595788689595_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.RotDist
open Cert.KernelIdeal.ArrValue (phases candRows phases_mem)

/-- The reference's result is the score array, on arguments satisfying the precondition: the phases are entries of
    the table and the candidate rows entries of the argument, so all three arrays are real, where the score (the
    expansion) is minus the distance computed directly, which is what the reference computes. -/
theorem ref_eq_score (a0 : FVec Ideal Cert.ReferenceIdeal.S256x256 .f32) (a1 : IVec Cert.ReferenceIdeal.S256 32)
    (a2 : FVec Ideal Cert.ReferenceIdeal.S1x4096x256 .f32) (a3 : FVec Ideal Cert.ReferenceIdeal.S500x128 .f32)
    (h : Cert.Pre_finite_inputs.fn (F := Ideal) a0 a1 a2 a3 = fun _ => 1#1) :
    Cert.ReferenceIdeal.Read.val_main_v27 (F := Ideal) a0 a1 a2 a3 = score a0 (phases a1 a3) (candRows a2) := by
  obtain ⟨h0, h2, h3⟩ := Cert.Pre_finite_inputs.Finite.real_of_pre a0 a1 a2 a3 h
  have hR : ∀ j, ∃ r : ℝ, phases a1 a3 j = (r : EReal) := fun j => by
    obtain ⟨i, hi⟩ := phases_mem a1 a3 j
    rw [hi]; exact h3 i
  have hC : ∀ j, ∃ r : ℝ, candRows a2 j = (r : EReal) := fun j => by
    unfold Cert.KernelIdeal.ArrValue.candRows shapeCast
    exact h2 _
  have e6 : Cert.ReferenceIdeal.Read.val_main_v6 (F := Ideal) a1 a3 = phases a1 a3 := rfl
  have e18 : Cert.ReferenceIdeal.Read.val_main_v18 (F := Ideal) a2 = candRows a2 := rfl
  funext i
  obtain ⟨b, n, rfl⟩ : ∃ (b : Fin 256) (n : Fin 4096), i = ix2 b n := ⟨i 0, i 1, eq_ix2 i⟩
  rw [score_eq_direct _ _ _ h0 hR hC b n, Cert.ReferenceIdeal.RefValue.ref_apply, e6, e18]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The kernel's result array ends at the score array of its arguments, the reference's at its composed term of
    arguments that agree and satisfy the precondition: one array (`ref_eq_score`). -/
theorem algebraic : Cert.algebraic_KernelIdeal_ReferenceIdeal := by
  intro m ρ m' ρ' hpre hagree
  refine ⟨_, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2.1, (hagree c).2.2.1, (hagree c).2.2.2]
  exact ref_eq_score _ _ _ _ (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
